-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3x300x25 : Shape := ⟨4, ![2048, 3, 300, 25]⟩
abbrev S_ : Shape := ⟨0, ![]⟩

class Facts : Prop where
  bcast_S_S2048x3x300x25 : S_.BroadcastsInDim S2048x3x300x25 (![] : Fin 0 → Fin S2048x3x300x25.rank)
  reducesTo_S2048x3x300x25_S_d0_1_2_3 : S2048x3x300x25.ReducesTo [0, 1, 2, 3] S_
  h_S_ : 0 < S_.numel

variable [Facts]

def fn {F : FTy → Type} [FloatOps F] (main_arg0 : FVec F S2048x3x300x25 .f32) (main_arg1 : FVec F S2048x3x300x25 .f32) : IVec S_ 1 :=
  let main_v0 : FVec F S2048x3x300x25 .f32 := Host.absf main_arg0
  let main_cst : FVec F S_ .f32 := constant S_ .f32 0x7F800000#32
  let main_v1 : FVec F S2048x3x300x25 .f32 := broadcastInDim S2048x3x300x25 ![] bcast_S_S2048x3x300x25 main_cst
  let main_v2 : IVec S2048x3x300x25 1 := cmpf .olt main_v0 main_v1
  let main_c : IVec S_ 1 := constantI S_ 1 1#1
  let main_v3 : IVec S_ 1 := (fun x v => Host.reduce IntOp.andi x v reducesTo_S2048x3x300x25_S_d0_1_2_3 h_S_) main_v2 main_c
  let main_v4 : FVec F S2048x3x300x25 .f32 := Host.absf main_arg1
  let main_cst_0 : FVec F S_ .f32 := constant S_ .f32 0x7F800000#32
  let main_v5 : FVec F S2048x3x300x25 .f32 := broadcastInDim S2048x3x300x25 ![] bcast_S_S2048x3x300x25 main_cst_0
  let main_v6 : IVec S2048x3x300x25 1 := cmpf .olt main_v4 main_v5
  let main_c_1 : IVec S_ 1 := constantI S_ 1 1#1
  let main_v7 : IVec S_ 1 := (fun x v => Host.reduce IntOp.andi x v reducesTo_S2048x3x300x25_S_d0_1_2_3 h_S_) main_v6 main_c_1
  let main_v8 : IVec S_ 1 := andi main_v3 main_v7
  main_v8
-- ==== Kernel.lean ====
abbrev S2048x3x300x25 : Shape := ⟨4, ![2048, 3, 300, 25]⟩
abbrev S2x8x128 : Shape := ⟨3, ![2, 8, 128]⟩
abbrev S8x3x300x25 : Shape := ⟨4, ![8, 3, 300, 25]⟩
abbrev S1x8x128 : Shape := ⟨3, ![1, 8, 128]⟩
abbrev S8x3x300 : Shape := ⟨3, ![8, 3, 300]⟩
abbrev S8x3 : Shape := ⟨2, ![8, 3]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1x1x1 : Shape := ⟨3, ![1, 1, 1]⟩
abbrev S8x3x299x25 : Shape := ⟨4, ![8, 3, 299, 25]⟩
abbrev S8x3x25 : Shape := ⟨3, ![8, 3, 25]⟩
abbrev S8x3x24 : Shape := ⟨3, ![8, 3, 24]⟩
abbrev S2x1x1 : Shape := ⟨3, ![2, 1, 1]⟩
abbrev S2 : Shape := ⟨1, ![2]⟩
abbrev S_ : Shape := ⟨0, ![]⟩

abbrev nBuf : Space → Nat
  | .hbm => 23
  | .vmem => 8
  | .smem => 0
  | _ => 0

abbrev bufTy : (tb : Table) → Fin (tcTables nBuf tb) → BufTy
  | .hbm, ⟨0, _⟩ => ⟨S2048x3x300x25, .f32⟩
  | .hbm, ⟨1, _⟩ => ⟨S2048x3x300x25, .f32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8x3x300x25, .f32⟩
  | .local _ .vmem, ⟨1, _⟩ => ⟨S8x3x300x25, .f32⟩
  | .local _ .vmem, ⟨2, _⟩ => ⟨S8x3x300x25, .f32⟩
  | .local _ .vmem, ⟨3, _⟩ => ⟨S8x3x300x25, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S2048x3x300x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x300x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x300x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S8x3x300x25_S8x3x300x25_0_0_0_0 : ∀ a, (![0, 0, 0, 0] : Fin 4 → Nat) a + S8x3x300x25.size a ≤ S8x3x300x25.size a
  h_S8x3x300x25 : 0 < S8x3x300x25.numel
  reduces_S8x3x300x25_S8x3x300 : S8x3x300x25.Reduces [3] S8x3x300
  reduces_S8x3x300_S8x3 : S8x3x300.Reduces [2] S8x3
  reduces_S8x3_S8 : S8x3.Reduces [1] S8
  shapeCasts_S8_S8x1 : S8.ShapeCasts S8x1
  reduces_S8x1_S1 : S8x1.Reduces [0] S1
  shapeCasts_S1_S1x1 : S1.ShapeCasts S1x1
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  shapeCasts_S1x1_S1x1x1 : S1x1.ShapeCasts S1x1x1
  slices_S8x3x300x25_o0_0_0_0_S8x3x299x25 : S8x3x300x25.Slices ![0, 0, 0, 0] S8x3x299x25
  slices_S8x3x300x25_o0_0_1_0_S8x3x299x25 : S8x3x300x25.Slices ![0, 0, 1, 0] S8x3x299x25
  reduces_S8x3x299x25_S8x3x25 : S8x3x299x25.Reduces [2] S8x3x25
  slices_S8x3x25_o0_0_0_S8x3x24 : S8x3x25.Slices ![0, 0, 0] S8x3x24
  reduces_S8x3x24_S8x3 : S8x3x24.Reduces [2] S8x3
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x300x25.size a ≤ S2048x3x300x25.size a
  hwx0_0 : ∀ i : grid0.Coords, EltTy.bits .f32 = 32 ∨ (Rect.block (s := S2048x3x300x25) S8x3x300x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x300x25.size a ≤ S2048x3x300x25.size a
  hwx0_1 : ∀ i : grid0.Coords, EltTy.bits .f32 = 32 ∨ (Rect.block (s := S2048x3x300x25) S8x3x300x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S8x3x300x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x300x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x3x300x25 : Shape := ⟨4, ![2048, 3, 300, 25]⟩
abbrev S_ : Shape := ⟨0, ![]⟩
abbrev S2048x25x300x3 : Shape := ⟨4, ![2048, 25, 300, 3]⟩
abbrev S2048x25x299x3 : Shape := ⟨4, ![2048, 25, 299, 3]⟩
abbrev S2048x25x3 : Shape := ⟨3, ![2048, 25, 3]⟩
abbrev S2048x24x3 : Shape := ⟨3, ![2048, 24, 3]⟩
abbrev S2048x3 : Shape := ⟨2, ![2048, 3]⟩

abbrev nBuf : Space → Nat
  | .hbm => 40
  | .vmem => 0
  | .smem => 0
  | _ => 0

abbrev bufTy : (tb : Table) → Fin (tcTables nBuf tb) → BufTy
  | .hbm, ⟨0, _⟩ => ⟨S2048x3x300x25, .f32⟩
  | .hbm, ⟨1, _⟩ => ⟨S2048x3x300x25, .f32⟩
  | .hbm, ⟨2, _⟩ => ⟨S2048x3x300x25, .f32⟩
  | .hbm, ⟨3, _⟩ => ⟨S2048x3x300x25, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x25x300x3, .f32⟩
  | .hbm, ⟨9, _⟩ => ⟨S2048x25x300x3, .f32⟩
  | .hbm, ⟨10, _⟩ => ⟨S2048x25x299x3, .f32⟩
  | .hbm, ⟨11, _⟩ => ⟨S2048x25x299x3, .f32⟩
  | .hbm, ⟨12, _⟩ => ⟨S2048x25x299x3, .f32⟩
  | .hbm, ⟨13, _⟩ => ⟨S2048x25x299x3, .f32⟩
  | .hbm, ⟨14, _⟩ => ⟨S_, .f32⟩
  | .hbm, ⟨15, _⟩ => ⟨S2048x25x3, .f32⟩
  | .hbm, ⟨16, _⟩ => ⟨S2048x25x299x3, .f32⟩
  | .hbm, ⟨17, _⟩ => ⟨S2048x25x299x3, .f32⟩
  | .hbm, ⟨18, _⟩ => ⟨S2048x25x299x3, .f32⟩
  | .hbm, ⟨19, _⟩ => ⟨S2048x25x299x3, .f32⟩
  | .hbm, ⟨20, _⟩ => ⟨S_, .f32⟩
  | .hbm, ⟨21, _⟩ => ⟨S2048x25x3, .f32⟩
  | .hbm, ⟨22, _⟩ => ⟨S2048x25x3, .f32⟩
  | .hbm, ⟨23, _⟩ => ⟨S2048x25x3, .f32⟩
  | .hbm, ⟨24, _⟩ => ⟨S2048x24x3, .f32⟩
  | .hbm, ⟨25, _⟩ => ⟨S_, .f32⟩
  | .hbm, ⟨26, _⟩ => ⟨S2048x3, .f32⟩
  | .hbm, ⟨27, _⟩ => ⟨S2048x3, .f32⟩
  | .hbm, ⟨28, _⟩ => ⟨S_, .f32⟩
  | .hbm, ⟨29, _⟩ => ⟨S2048x3, .f32⟩
  | .hbm, ⟨30, _⟩ => ⟨S2048x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S2048x3x300x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S2048x3x300x25_S_d0_1_2_3 : S2048x3x300x25.ReducesTo [0, 1, 2, 3] S_
  h_S_ : 0 < S_.numel
  transposes_S2048x3x300x25_S2048x25x300x3_0_3_2_1 : S2048x3x300x25.Transposes [0, 3, 2, 1] S2048x25x300x3
  slices_S2048x25x300x3_S2048x25x299x3_0_0_0_0 : S2048x25x300x3.Slices ![0, 0, 0, 0] S2048x25x299x3
  slices_S2048x25x300x3_S2048x25x299x3_0_0_1_0 : S2048x25x300x3.Slices ![0, 0, 1, 0] S2048x25x299x3
  reducesTo_S2048x25x299x3_S2048x25x3_d2 : S2048x25x299x3.ReducesTo [2] S2048x25x3
  slices_S2048x25x3_S2048x24x3_0_0_0 : S2048x25x3.Slices ![0, 0, 0] S2048x24x3
  reducesTo_S2048x24x3_S2048x3_d1 : S2048x24x3.ReducesTo [1] S2048x3
  bcast_S_S2048x3 : S_.BroadcastsInDim S2048x3 (![] : Fin 0 → Fin S2048x3.rank)
  reducesTo_S2048x3_S_d0_1 : S2048x3.ReducesTo [0, 1] S_

variable [Facts₀]

class Facts : Prop extends Facts₀ where

variable [Facts]
-- ==== Proof.Spec.lean ====
/-
  The loss, as mathematics on the extended reals, stated over plain coordinates.

  One batch ROW is a function `Fin 3 → Fin 300 → Fin 25 → EReal` (channel, frame, joint). For two rows `X`, `Y`:
    * `rowMse X Y`   — the sum over channel, frame and joint of `(X - Y)²`;
    * `drift Z`      — for one (channel, joint) column `Z : Fin 300 → EReal`, the sum over the frames `t < 299` of
                        `Z t - (Z (t+1))²` (the next frame squared, not the squared difference);
    * `rough X Y`    — for one channel, the square root of the sum over the joints `k < 24` of `|drift X - drift Y|`;
    * `rowRough X Y` — the sum of `rough` over the three channels.
  The loss of two arrays of `2048` rows is
    `2 · (Σ_rows rowMse) / 46080000 + 3 · ((Σ_rows rowRough) / 6144) / 7500`,
  the constants kept as the bit patterns both programs spell.
-/
import Idealize.ShloMosaic.PureOps.Ideal
import Idealize.ShloMosaic.Lib.ValueIdx

noncomputable section

namespace Cert.Loss

open Idealize.ShloMosaic Idealize.ShloMosaic.ValueIdx

/-- A batch row: channel, frame, joint. -/
abbrev Row := Fin 3 → Fin 300 → Fin 25 → EReal

/-- The squared difference of two extended reals. -/
def sqd (a b : EReal) : EReal := (a - b) * (a - b)

/-- Frame `t` and frame `t + 1` of the `299` consecutive pairs; joint `k` of the first `24`. -/
def lo (t : Fin 299) : Fin 300 := ⟨t.val, by have := t.isLt; omega⟩
def hi (t : Fin 299) : Fin 300 := ⟨1 + t.val, by have := t.isLt; omega⟩
def jt (k : Fin 24) : Fin 25 := ⟨k.val, by have := k.isLt; omega⟩

/-- One column's drift: `Σ_{t<299} (Z t - (Z (t+1))²)`. -/
def drift (Z : Fin 300 → EReal) : EReal := ∑ t : Fin 299, (Z (lo t) - Z (hi t) * Z (hi t))

/-- One channel's roughness: `√ Σ_{k<24} |drift X_k - drift Y_k|`, the absolute value as `max d (-d)`. -/
def rough (X Y : Fin 300 → Fin 25 → EReal) : EReal :=
  Ideal.sqrt (∑ k : Fin 24, max (drift (fun t => X t (jt k)) - drift (fun t => Y t (jt k)))
    (-(drift (fun t => X t (jt k)) - drift (fun t => Y t (jt k)))))

/-- A row's squared error and its roughness. -/
def rowMse (X Y : Row) : EReal := ∑ c : Fin 3, ∑ t : Fin 300, ∑ j : Fin 25, sqd (X c t j) (Y c t j)
def rowRough (X Y : Row) : EReal := ∑ c : Fin 3, rough (X c) (Y c)

/-- Row `n` of an array of `2048` rows (`0` past the end: never read). -/
def row (x : (⟨4, ![2048, 3, 300, 25]⟩ : Shape).Idx → EReal) (n : ℕ) : Row :=
  fun c t j => if h : n < 2048 then x (ix4 ⟨n, h⟩ c t j) else 0

/-- The two totals over the `2048` rows. -/
def mseTotal (x y : (⟨4, ![2048, 3, 300, 25]⟩ : Shape).Idx → EReal) : EReal := ∑ B : Fin 2048, rowMse (row x B.val) (row y B.val)
def roughTotal (x y : (⟨4, ![2048, 3, 300, 25]⟩ : Shape).Idx → EReal) : EReal := ∑ B : Fin 2048, rowRough (row x B.val) (row y B.val)

/-- The loss from the two totals: `2 · mse / 46080000 + 3 · (rough / 6144) / 7500`. -/
def lossOf (mse rg : EReal) : EReal :=
  Ideal.ofBits .f32 0x40000000#32 * Ideal.div mse (Ideal.ofBits .f32 0x4C2FC800#32)
    + Ideal.ofBits .f32 0x40400000#32
      * Ideal.div (Ideal.div rg (Ideal.ofBits .f32 0x45C00000#32)) (Ideal.ofBits .f32 0x45EA6000#32)

/-- The loss of two arrays. -/
def loss (x y : (⟨4, ![2048, 3, 300, 25]⟩ : Shape).Idx → EReal) : EReal := lossOf (mseTotal x y) (roughTotal x y)

end Cert.Loss

end
-- ==== Proof.Payloads.lean ====
/-
  The body's arithmetic, read at an index over the extended reals.

  A lane sum over one axis is the sum over that axis's coordinate; a cast that adds or drops an axis of extent one keeps
  the entries. So the chain that collapses an `[8,3,300,25]` block to one number — sums over joint, frame, channel, then
  over the `8` rows — is the fourfold sum of its entries, and what the body adds into an accumulator's corner is
    * the block's squared error, `Σ_rows rowMse`, for the first accumulator;
    * the block's roughness, `Σ_rows rowRough`, for the second: per (row, channel) the square root of the sum over the first
      `24` joints of `|drift x - drift y|`, each drift the sum over the `299` frame pairs of `z_t - z_{t+1}²`, the two frame
      slices `[0,299)` and `[1,300)` read at the frames `t` and `t + 1`.
-/
import proofs.«174398_j69655779606927_2_alg».proof.Proof.Gen.KernelIdeal.Skeleton
import proofs.«174398_j69655779606927_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Loss

open Cert.KernelIdeal Cert.KernelIdeal.Gen Cert.Loss

/-- The four lane sums and the two unit-axis casts that collapse an `[8,3,300,25]` vector to one number: the sum of
    all its entries, rows outermost. -/
theorem total4 (w : FVec Ideal S8x3x300x25 .f32) (o : S1x1.Idx) :
    shapeCast S1x1 (multiReduction .add [0] S1 (shapeCast S8x1 (multiReduction .add [1] S8
      (multiReduction .add [2] S8x3 (multiReduction .add [3] S8x3x300 w 0x00000000#32 reduces_S8x3x300x25_S8x3x300 (.inl rfl) rfl)
        0x00000000#32 reduces_S8x3x300_S8x3 (.inl rfl) rfl) 0x00000000#32 reduces_S8x3_S8 (.inl rfl) rfl) shapeCasts_S8_S8x1)
      0x00000000#32 reduces_S8x1_S1 (.inl rfl) rfl) shapeCasts_S1_S1x1 o
      = ∑ b : Fin 8, ∑ c : Fin 3, ∑ t : Fin 300, ∑ j : Fin 25, w (ix4 b c t j) := by
  refine (shapeCast_apply _ shapeCasts_S1_S1x1 o (ix1 (0 : Fin 1)) ?_).trans ?_
  · have h0 : (o 0).val < 1 := (o 0).isLt
    have h1 : (o 1).val < 1 := (o 1).isLt
    rw [Shape.rowMajor_val_one, Shape.rowMajor_val_two]
    show (0 : ℕ) = (o 0).val * 1 + (o 1).val
    omega
  refine (Ideal.multiReduction_add_single _ _ reduces_S8x1_S1 _ _ (ix1 (0 : Fin 1))).trans ?_
  refine Finset.sum_congr rfl fun (b : Fin 8) _ => ?_
  refine (shapeCast_apply _ shapeCasts_S8_S8x1 _ (ix1 b) ?_).trans ?_
  · rw [Shape.rowMajor_val_one, Shape.rowMajor_val_two]
    show b.val = b.val * 1 + 0
    omega
  refine (Ideal.multiReduction_add_single _ _ reduces_S8x3_S8 _ _ (ix1 b)).trans ?_
  refine Finset.sum_congr rfl fun (c : Fin 3) _ => ?_
  refine (Ideal.multiReduction_add_single _ _ reduces_S8x3x300_S8x3 _ _ _).trans ?_
  refine Finset.sum_congr rfl fun (t : Fin 300) _ => ?_
  refine (Ideal.multiReduction_add_single _ _ reduces_S8x3x300x25_S8x3x300 _ _ _).trans ?_
  refine Finset.sum_congr rfl fun (j : Fin 25) _ => ?_
  exact congrArg w (funext fun a => Fin.ext (by match a with | ⟨0, _⟩ => rfl | ⟨1, _⟩ => rfl | ⟨2, _⟩ => rfl | ⟨3, _⟩ => rfl))

/-- The same collapse of an `[8,3]` vector: the sum of its entries, rows outermost. -/
theorem total2 (w : FVec Ideal S8x3 .f32) (o : S1x1.Idx) :
    shapeCast S1x1 (multiReduction .add [0] S1 (shapeCast S8x1 (multiReduction .add [1] S8 w
      0x00000000#32 reduces_S8x3_S8 (.inl rfl) rfl) shapeCasts_S8_S8x1)
      0x00000000#32 reduces_S8x1_S1 (.inl rfl) rfl) shapeCasts_S1_S1x1 o
      = ∑ b : Fin 8, ∑ c : Fin 3, w (ix2 b c) := by
  refine (shapeCast_apply _ shapeCasts_S1_S1x1 o (ix1 (0 : Fin 1)) ?_).trans ?_
  · have h0 : (o 0).val < 1 := (o 0).isLt
    have h1 : (o 1).val < 1 := (o 1).isLt
    rw [Shape.rowMajor_val_one, Shape.rowMajor_val_two]
    show (0 : ℕ) = (o 0).val * 1 + (o 1).val
    omega
  refine (Ideal.multiReduction_add_single _ _ reduces_S8x1_S1 _ _ (ix1 (0 : Fin 1))).trans ?_
  refine Finset.sum_congr rfl fun (b : Fin 8) _ => ?_
  refine (shapeCast_apply _ shapeCasts_S8_S8x1 _ (ix1 b) ?_).trans ?_
  · rw [Shape.rowMajor_val_one, Shape.rowMajor_val_two]
    show b.val = b.val * 1 + 0
    omega
  refine (Ideal.multiReduction_add_single _ _ reduces_S8x3_S8 _ _ (ix1 b)).trans ?_
  refine Finset.sum_congr rfl fun (c : Fin 3) _ => ?_
  exact congrArg w (funext fun a => Fin.ext (by match a with | ⟨0, _⟩ => rfl | ⟨1, _⟩ => rfl))

/-- A `[1,1,1]` vector read through the cast to `[1,1]`, and a `[1,1]` vector through the cast back: the one entry. -/
theorem cast111_11 (v : Vec Ideal S1x1x1 .f32) (o : S1x1.Idx) :
    shapeCast S1x1 v shapeCasts_S1x1x1_S1x1 o = v (ix3 (0 : Fin 1) (0 : Fin 1) (0 : Fin 1)) := by
  refine shapeCast_apply v shapeCasts_S1x1x1_S1x1 o _ ?_
  have h0 : (o 0).val < 1 := (o 0).isLt
  have h1 : (o 1).val < 1 := (o 1).isLt
  rw [Shape.rowMajor_val_three, Shape.rowMajor_val_two]
  show ((0 : ℕ) * 1 + 0) * 1 + 0 = (o 0).val * 1 + (o 1).val
  omega

theorem cast11_111 (v : FVec Ideal S1x1 .f32) (o : S1x1x1.Idx) :
    shapeCast S1x1x1 v shapeCasts_S1x1_S1x1x1 o = v (ix2 (0 : Fin 1) (0 : Fin 1)) := by
  refine shapeCast_apply v shapeCasts_S1x1_S1x1x1 o _ ?_
  have h0 : (o 0).val < 1 := (o 0).isLt
  have h1 : (o 1).val < 1 := (o 1).isLt
  have h2 : (o 2).val < 1 := (o 2).isLt
  rw [Shape.rowMajor_val_three, Shape.rowMajor_val_two]
  show (0 : ℕ) * 1 + 0 = ((o 0).val * 1 + (o 1).val) * 1 + (o 2).val
  omega

/-- THE SQUARED-ERROR PAYLOAD: what the body stores at the accumulator's corner is what it read there plus the
    block's squared error, the sum over its `8` rows of `rowMse`. -/
theorem pay4_apply (v3 v4 : Vec Ideal S8x3x300x25 .f32) (v13 : Vec Ideal S1x1x1 .f32) (o : S1x1x1.Idx) :
    k0_pay4 (F := Ideal) v3 v4 v13 o
      = v13 (ix3 (0 : Fin 1) (0 : Fin 1) (0 : Fin 1))
        + ∑ b : Fin 8, rowMse (fun c t j => v3 (ix4 b c t j)) (fun c t j => v4 (ix4 b c t j)) := by
  unfold k0_pay4
  dsimp only
  refine (cast11_111 _ o).trans ?_
  refine congrArg₂ (· + ·) (cast111_11 v13 _) ?_
  exact total4 _ _

/-- One column's drift, as the body computes it: the two frame slices `[0,299)` and `[1,300)`, the second squared,
    subtracted and summed over the `299` frames. -/
theorem drift_apply (v : Vec Ideal S8x3x300x25 .f32) (b : Fin 8) (c : Fin 3) (j : Fin 25) :
    multiReduction (F := Ideal) .add [2] S8x3x25
      (subf (F := Ideal) (extractStridedSlice S8x3x299x25 ![0, 0, 0, 0] v slices_S8x3x300x25_o0_0_0_0_S8x3x299x25)
        (mulf (F := Ideal) (extractStridedSlice S8x3x299x25 ![0, 0, 1, 0] v slices_S8x3x300x25_o0_0_1_0_S8x3x299x25)
          (extractStridedSlice S8x3x299x25 ![0, 0, 1, 0] v slices_S8x3x300x25_o0_0_1_0_S8x3x299x25)))
      0x00000000#32 reduces_S8x3x299x25_S8x3x25 (.inl rfl) rfl (ix3 b c j)
      = drift (fun t => v (ix4 b c t j)) := by
  refine (Ideal.multiReduction_add_single _ _ reduces_S8x3x299x25_S8x3x25 _ _ (ix3 b c j)).trans ?_
  unfold drift
  refine Finset.sum_congr rfl fun (t : Fin 299) _ => ?_
  have e0 : extractStridedSlice S8x3x299x25 ![0, 0, 0, 0] v slices_S8x3x300x25_o0_0_0_0_S8x3x299x25
      (reduces_S8x3x299x25_S8x3x25.lift (ix3 b c j) t) = v (ix4 b c (lo t) j) :=
    extractStridedSlice_apply _ v _ _ (ix4 b c (lo t) j) (fun a => match a with
      | ⟨0, _⟩ => by show b.val = 0 + b.val; omega
      | ⟨1, _⟩ => by show c.val = 0 + c.val; omega
      | ⟨2, _⟩ => by show t.val = 0 + t.val; omega
      | ⟨3, _⟩ => by show j.val = 0 + j.val; omega)
  have e1 : extractStridedSlice S8x3x299x25 ![0, 0, 1, 0] v slices_S8x3x300x25_o0_0_1_0_S8x3x299x25
      (reduces_S8x3x299x25_S8x3x25.lift (ix3 b c j) t) = v (ix4 b c (hi t) j) :=
    extractStridedSlice_apply _ v _ _ (ix4 b c (hi t) j) (fun a => match a with
      | ⟨0, _⟩ => by show b.val = 0 + b.val; omega
      | ⟨1, _⟩ => by show c.val = 0 + c.val; omega
      | ⟨2, _⟩ => by show 1 + t.val = 1 + t.val; omega
      | ⟨3, _⟩ => by show j.val = 0 + j.val; omega)
  exact congrArg₂ (fun p q => p - q * q) e0 e1

/-- THE ROUGHNESS INSIDE THE ROOT: at row `b`, channel `c` of the block, the sum over the first `24` joints of the
    absolute difference of the two arrays' drifts. -/
theorem pay5_apply (v3 v4 : Vec Ideal S8x3x300x25 .f32) (b : Fin 8) (c : Fin 3) :
    k0_pay5 (F := Ideal) v3 v4 (ix2 b c)
      = ∑ k : Fin 24, max (drift (fun t => v3 (ix4 b c t (jt k))) - drift (fun t => v4 (ix4 b c t (jt k))))
          (-(drift (fun t => v3 (ix4 b c t (jt k))) - drift (fun t => v4 (ix4 b c t (jt k))))) := by
  unfold k0_pay5
  dsimp only
  refine (Ideal.multiReduction_add_single _ _ reduces_S8x3x24_S8x3 _ _ (ix2 b c)).trans ?_
  refine Finset.sum_congr rfl fun (k : Fin 24) _ => ?_
  refine (extractStridedSlice_apply _ _ slices_S8x3x25_o0_0_0_S8x3x24 _ (ix3 b c (jt k)) (fun a => match a with
      | ⟨0, _⟩ => by show b.val = 0 + b.val; omega
      | ⟨1, _⟩ => by show c.val = 0 + c.val; omega
      | ⟨2, _⟩ => by show k.val = 0 + k.val; omega)).trans ?_
  exact congrArg₂ (fun p q => max (p - q) (-(p - q))) (drift_apply v3 b c (jt k)) (drift_apply v4 b c (jt k))

/-- THE ROUGHNESS PAYLOAD: what the body stores at the second accumulator's corner is what it read there plus the sum,
    over the block's rows and channels, of the square roots of `v32`. -/
theorem pay1_apply (v32 : FVec Ideal S8x3 .f32) (v38 : Vec Ideal S1x1x1 .f32) (o : S1x1x1.Idx) :
    k0_pay1 (F := Ideal) v32 v38 o
      = v38 (ix3 (0 : Fin 1) (0 : Fin 1) (0 : Fin 1)) + ∑ b : Fin 8, ∑ c : Fin 3, Ideal.sqrt (v32 (ix2 b c)) := by
  unfold k0_pay1
  dsimp only
  refine (cast11_111 _ o).trans ?_
  refine congrArg₂ (· + ·) (cast111_11 v38 _) ?_
  exact total2 _ _

/-- So with `v32` the body's own: the block's roughness, the sum over its `8` rows of `rowRough`. -/
theorem pay1_pay5_apply (v3 v4 : Vec Ideal S8x3x300x25 .f32) (v38 : Vec Ideal S1x1x1 .f32) (o : S1x1x1.Idx) :
    k0_pay1 (F := Ideal) (k0_pay5 (F := Ideal) v3 v4) v38 o
      = v38 (ix3 (0 : Fin 1) (0 : Fin 1) (0 : Fin 1))
        + ∑ b : Fin 8, rowRough (fun c t j => v3 (ix4 b c t j)) (fun c t j => v4 (ix4 b c t j)) := by
  rw [pay1_apply]
  refine congrArg (_ + ·) (Finset.sum_congr rfl fun b _ => ?_)
  unfold rowRough rough
  refine Finset.sum_congr rfl fun c _ => ?_
  rw [pay5_apply]

end Cert.KernelIdeal.Loss

end
-- ==== Proof.SumLaws.lean ====
/-
  Sums on the extended reals: the laws that join the two arrangements of the loss.

  * a finite nonnegative factor distributes over any finite sum of extended reals (the only distributivity the
    loss needs: its two divisors are positive reals, so no term has to be finite or of one sign);
  * dividing every term by `c₁` and the total by `c₂` is dividing the total by `c₂` and then by `c₁`;
  * a sum over `2048` batch rows is the sum over `2` halves, `128` steps per half and `8` rows per step, row
    `8·(128·q + s) + b`;
  * the two divisors' bit patterns denote `7500` and `6144`.
-/
import Idealize.ShloMosaic.PureOps.Ideal
import Mathlib.Algebra.BigOperators.Fin
import Mathlib.Algebra.BigOperators.Intervals

noncomputable section

namespace Cert.SumLaws

open Idealize.ShloMosaic

/-- A nonnegative real factor distributes over a finite sum of extended reals, whatever the terms (infinite ones
    and both signs included): `(y + z) * k = y * k + z * k` holds on the extended reals once `0 ≤ k < ⊤`. -/
theorem sum_mul_coe {ι : Type*} (s : Finset ι) (a : ι → EReal) {k : ℝ} (hk : 0 ≤ k) :
    (∑ i ∈ s, a i) * (k : EReal) = ∑ i ∈ s, a i * (k : EReal) := by
  classical
  induction s using Finset.induction_on with
  | empty => simp
  | insert i s hi ih =>
    rw [Finset.sum_insert hi, Finset.sum_insert hi,
      EReal.right_distrib_of_nonneg_of_ne_top (by exact_mod_cast hk) (EReal.coe_ne_top k), ih]

/-- The mean of per-row quotients against the quotient of the sum: with positive real divisors, dividing each term by
    `c₁` and their sum by `c₂` equals dividing the sum by `c₂` and the result by `c₁`. -/
theorem div_sum_div {ι : Type*} (s : Finset ι) (a : ι → EReal) {c₁ c₂ : ℝ} (h₁ : 0 < c₁) (h₂ : 0 < c₂) :
    Ideal.div (∑ i ∈ s, Ideal.div (a i) (c₁ : EReal)) (c₂ : EReal)
      = Ideal.div (Ideal.div (∑ i ∈ s, a i) (c₂ : EReal)) (c₁ : EReal) := by
  simp only [Ideal.div_coe h₁.ne', Ideal.div_coe h₂.ne']
  rw [← sum_mul_coe s a (by positivity), mul_right_comm]

/-- A sum over `m·n` consecutive naturals, cut into `m` runs of `n`. -/
theorem sum_range_mul {M : Type*} [AddCommMonoid M] (m n : ℕ) (f : ℕ → M) :
    ∑ i ∈ Finset.range (m * n), f i = ∑ a ∈ Finset.range m, ∑ b ∈ Finset.range n, f (a * n + b) := by
  induction m with
  | zero => simp
  | succ m ih => rw [Nat.succ_mul, Finset.sum_range_add, ih, Finset.sum_range_succ]

/-- The batch axis by halves, steps and rows: `2048 = 2 · 128 · 8`, row `8·(128·q + s) + b`. -/
theorem sum_rows {M : Type*} [AddCommMonoid M] (g : ℕ → M) :
    ∑ B : Fin 2048, g B.val
      = ∑ q : Fin 2, ∑ s ∈ Finset.range 128, ∑ b : Fin 8, g (8 * (128 * q.val + s) + b.val) := by
  rw [← Finset.sum_range (fun i => g i), ← Finset.sum_range (fun q => ∑ s ∈ Finset.range 128, ∑ b : Fin 8, g (8 * (128 * q + s) + b.val))]
  rw [show (2048 : ℕ) = 256 * 8 from rfl, sum_range_mul, show (256 : ℕ) = 2 * 128 from rfl, sum_range_mul]
  refine Finset.sum_congr rfl fun q _ => Finset.sum_congr rfl fun s _ => ?_
  rw [← Finset.sum_range (fun b => g (8 * (128 * q + s) + b))]
  refine Finset.sum_congr rfl fun b _ => ?_
  congr 1
  ring

/-- A quantity indexed by the points `n < N` that RESETS to its own term at every multiple of `128` and otherwise ADDS its
    term to what the point before held is, at any point, the sum of the terms of its run: the points from the last
    multiple of `128` up to `n`. -/
theorem fold_of_reset_step {N : ℕ} (f : (n : ℕ) → n < N → EReal) (M : ℕ → EReal)
    (h0 : ∀ (n : ℕ) (h : n < N), n % 128 = 0 → f n h = M n)
    (hs : ∀ (n : ℕ) (h : n + 1 < N), ¬(n + 1) % 128 = 0 → f (n + 1) h = f n (Nat.lt_of_succ_lt h) + M (n + 1)) :
    ∀ (n : ℕ) (h : n < N), f n h = ∑ s ∈ Finset.range (n % 128 + 1), M (n - n % 128 + s)
  | 0, h => by rw [h0 0 h rfl]; simp
  | n + 1, h => by
    by_cases hm : (n + 1) % 128 = 0
    · rw [h0 _ h hm, hm]; simp
    · rw [hs n h hm, fold_of_reset_step f M h0 hs n (Nat.lt_of_succ_lt h)]
      have e1 : (n + 1) % 128 = n % 128 + 1 := by omega
      have e2 : n + 1 - (n % 128 + 1) = n - n % 128 := by omega
      rw [e1, e2, Finset.sum_range_succ _ (n % 128 + 1)]
      congr 2
      omega

/-- At the last point of a run, `128·q + 127`, that is the whole run's sum. -/
theorem fold_at_last {N : ℕ} (f : (n : ℕ) → n < N → EReal) (M : ℕ → EReal)
    (h0 : ∀ (n : ℕ) (h : n < N), n % 128 = 0 → f n h = M n)
    (hs : ∀ (n : ℕ) (h : n + 1 < N), ¬(n + 1) % 128 = 0 → f (n + 1) h = f n (Nat.lt_of_succ_lt h) + M (n + 1))
    (n : ℕ) (h : n < N) (hn : n % 128 = 127) :
    f n h = ∑ s ∈ Finset.range 128, M (128 * (n / 128) + s) := by
  rw [fold_of_reset_step f M h0 hs n h, hn]
  refine Finset.sum_congr rfl fun s _ => ?_
  congr 1
  omega

/-- The divisor `7500.0` (`J·T`) denotes the real `7500`. -/
theorem ofBits_7500 : Ideal.ofBits .f32 0x45EA6000#32 = ((7500 : ℝ) : EReal) := by
  simp [Ideal.ofBits, Ideal.ieee, -EReal.coe_mul]; norm_num

/-- The divisor `6144.0` (`B·C`) denotes the real `6144`. -/
theorem ofBits_6144 : Ideal.ofBits .f32 0x45C00000#32 = ((6144 : ℝ) : EReal) := by
  simp [Ideal.ofBits, Ideal.ieee, -EReal.coe_mul]; norm_num

/-- The zero word denotes `0`. -/
theorem ofBits_zero : Ideal.ofBits .f32 0x00000000#32 = 0 := by
  simp [Ideal.ofBits, Ideal.ieee]

end Cert.SumLaws

end
-- ==== Proof.CaseValues.lean ====
/-
  What each case of the body leaves at the corner `(0,0,0)` of the two accumulator blocks.

  The body zeroes both `[1,8,128]` blocks at the first step of a half (`s = 0`), and at every step adds the block's
  squared error into the corner of the first and the block's roughness into the corner of the second. Only the corner
  is ever read after the call, so only the corner is followed: at a first step it holds the block's term alone, at a
  later step what the step before left there plus the block's term.
-/
import proofs.«174398_j69655779606927_2_alg».proof.Proof.Gen.KernelIdeal.Frame
import proofs.«174398_j69655779606927_2_alg».proof.Proof.Payloads
import proofs.«174398_j69655779606927_2_alg».proof.Proof.SumLaws
import Idealize.ShloMosaic.Lib.WritesUnit
import Idealize.ShloMosaic.Lib.Tactic

set_option maxRecDepth 16384

noncomputable section

open Idealize.ShloMosaic Idealize.ShloMosaic.TcCoe Idealize.ShloMosaic.ValueIdx Idealize.SL.Sem

namespace Cert.KernelIdeal.Loss

open Cert.KernelIdeal Cert.KernelIdeal.Gen Cert.Loss

/-- The corner of an accumulator block, and the one index of the `[1,1,1]` piece stored there. -/
abbrev corner : S1x8x128.Idx := ix3 (0 : Fin 1) (0 : Fin 8) (0 : Fin 128)
abbrev unit3 : S1x1x1.Idx := ix3 (0 : Fin 1) (0 : Fin 1) (0 : Fin 1)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The corner is the piece's one index, offsets zero. -/
theorem corner_at (a : Fin 3) : (corner a).val = (![0, 0, 0] : Fin 3 → Nat) a + (unit3 a).val := by
  match a with
  | ⟨0, _⟩ => rfl
  | ⟨1, _⟩ => rfl
  | ⟨2, _⟩ => rfl

/-- A load of a whole `[8,3,300,25]` buffer reads its contents. -/
theorem ld_whole (X : Vec Ideal S8x3x300x25 .f32) (inb : ∀ a, (![0, 0, 0, 0] : Fin 4 → Nat) a + (![8, 3, 300, 25] : Fin 4 → Nat) a ≤ S8x3x300x25.size a) :
    View.ld (Val := Elt Ideal) (e' := .f32) X (Rect.unit (s := S8x3x300x25) ![0, 0, 0, 0] ![8, 3, 300, 25] inb) = X :=
  View.ld_unit_zero (S := S8x3x300x25) zeros4 inb X

/-- A load of the `[1,1,1]` corner of a block reads the block's corner. -/
theorem ld_corner (X : Vec Ideal S1x8x128 .f32) (inb : ∀ a, (![0, 0, 0] : Fin 3 → Nat) a + (![1, 1, 1] : Fin 3 → Nat) a ≤ S1x8x128.size a) :
    View.ld (Val := Elt Ideal) (e' := .f32) X (Rect.unit (s := S1x8x128) ![0, 0, 0] ![1, 1, 1] inb) unit3 = X corner :=
  congrArg X (funext fun a => Fin.ext (by
    match a with
    | ⟨0, _⟩ => rfl
    | ⟨1, _⟩ => rfl
    | ⟨2, _⟩ => rfl))

/-- The block's two terms: its squared error and its roughness, summed over its `8` rows. -/
def blockMse (x0 x1 : Vec Ideal S8x3x300x25 .f32) : EReal :=
  ∑ b : Fin 8, rowMse (fun c t j => x0 (ix4 b c t j)) (fun c t j => x1 (ix4 b c t j))
def blockRough (x0 x1 : Vec Ideal S8x3x300x25 .f32) : EReal :=
  ∑ b : Fin 8, rowRough (fun c t j => x0 (ix4 b c t j)) (fun c t j => x1 (ix4 b c t j))

variable (c : Dev nD) (i : grid0.Coords)
  (a2 : Memref sig .tc .vmem S8x3x300x25 .f32) (h2 : a2.IsWhole) (a3 : Memref sig .tc .vmem S8x3x300x25 .f32) (h3 : a3.IsWhole)
  (a4 : Memref sig .tc .vmem S1x8x128 .f32) (h4 : a4.IsWhole) (a5 : Memref sig .tc .vmem S1x8x128 .f32) (h5 : a5.IsWhole)

/-- A LATER STEP, first accumulator: the corner holds what it held plus the block's squared error. -/
theorem later_mse (hc : ¬cond0_0 i) (x0 x1 : Vec Ideal S8x3x300x25 .f32) (xo2 xo3 : Vec Ideal S1x8x128 .f32) :
    out0_B_2 c i a2 h2 a3 h3 a4 h4 a5 h5 hc x0 x1 xo2 xo3 corner = xo2 corner + blockMse x0 x1 := by
  unfold out0_B_2
  unfold kernelRun0_B
  dsimp only
  refine (View.read_writes_cons_unit_of_mem a4.view _ inb_S1x8x128_S1x1x1_0_0_0 _ [] corner unit3 rfl corner_at).trans ?_
  refine (pay4_apply _ _ _ unit3).trans ?_
  simp only [View.readAt_eq_ld, h2.read_unread, h3.read_unread, h4.read_unread]
  unfold blockMse
  exact congrArg₂ (· + ·) (ld_corner xo2 _) (Finset.sum_congr rfl fun b _ => congrArg₂ rowMse
    (funext fun c' => funext fun t => funext fun j => congrFun (ld_whole x0 _) (ix4 b c' t j))
    (funext fun c' => funext fun t => funext fun j => congrFun (ld_whole x1 _) (ix4 b c' t j)))

/-- A LATER STEP, second accumulator: the corner holds what it held plus the block's roughness. -/
theorem later_rough (hc : ¬cond0_0 i) (x0 x1 : Vec Ideal S8x3x300x25 .f32) (xo2 xo3 : Vec Ideal S1x8x128 .f32) :
    out0_B_3 c i a2 h2 a3 h3 a4 h4 a5 h5 hc x0 x1 xo2 xo3 corner = xo3 corner + blockRough x0 x1 := by
  unfold out0_B_3
  unfold kernelRun0_B
  dsimp only
  sl_unfold_words
  refine (View.read_writes_cons_unit_of_mem a5.view _ inb_S1x8x128_S1x1x1_0_0_0 _ [] corner unit3 rfl corner_at).trans ?_
  refine (pay1_pay5_apply _ _ _ unit3).trans ?_
  simp only [View.readAt_eq_ld, h2.read_unread, h3.read_unread, h5.read_unread]
  unfold blockRough
  exact congrArg₂ (· + ·) (ld_corner xo3 _) (Finset.sum_congr rfl fun b _ => congrArg₂ rowRough
    (funext fun c' => funext fun t => funext fun j => congrFun (ld_whole x0 _) (ix4 b c' t j))
    (funext fun c' => funext fun t => funext fun j => congrFun (ld_whole x1 _) (ix4 b c' t j)))

/-- The corner read back right after a store of a whole block `w` reads `w` at the corner. -/
theorem readback_corner (v : View sig .tc .vmem S1x8x128 .f32) (w : Vec Ideal S1x8x128 .f32)
    (inb1 : ∀ a, (![0, 0, 0] : Fin 3 → Nat) a + (![1, 8, 128] : Fin 3 → Nat) a ≤ S1x8x128.size a)
    (inb2 : ∀ a, (![0, 0, 0] : Fin 3 → Nat) a + (![1, 1, 1] : Fin 3 → Nat) a ≤ S1x8x128.size a) :
    v.readCov (Val := Elt Ideal) [⟨Rect.unit (s := S1x8x128) ![0, 0, 0] ![1, 8, 128] inb1, w⟩]
      (Rect.unit (s := S1x8x128) ![0, 0, 0] ![1, 1, 1] inb2).toLoadRect unit3 = w corner := by
  rw [View.readCov_eq_canon']
  show View.canon [(⟨Rect.unit ![0, 0, 0] S1x8x128.size inb1, w⟩ : View.Piece (Elt Ideal) S1x8x128 .f32)] _ = _
  rw [View.canon_unit_zero zeros3]
  exact congrArg w (funext fun a => Fin.ext (by
    match a with
    | ⟨0, _⟩ => rfl
    | ⟨1, _⟩ => rfl
    | ⟨2, _⟩ => rfl))

/-- The block the first step stores is zero everywhere. -/
theorem zero_block2 (y : S1x8x128.Idx) : k0_pay2 (F := Ideal) y = 0 := Cert.SumLaws.ofBits_zero
theorem zero_block3 (y : S1x8x128.Idx) : k0_pay3 (F := Ideal) y = 0 := Cert.SumLaws.ofBits_zero

/-- A FIRST STEP, first accumulator: the block is zeroed, then its corner takes the block's squared error alone. -/
theorem first_mse (hc : cond0_0 i) (x0 x1 : Vec Ideal S8x3x300x25 .f32) :
    out0_A_2 c i a2 h2 a3 h3 a4 h4 a5 h5 hc x0 x1 corner = blockMse x0 x1 := by
  unfold out0_A_2
  unfold kernelRun0_A
  dsimp only
  sl_unfold_words
  refine (View.read_writes_cons_unit_of_mem VO0_2 _ inb_S1x8x128_S1x1x1_0_0_0 _ _ corner unit3 rfl corner_at).trans ?_
  refine (pay4_apply _ _ _ unit3).trans ?_
  simp only [View.readAt_eq_ld, h2.read_unread, h3.read_unread]
  unfold blockMse
  refine (congrArg₂ (· + ·) ((readback_corner a4.view _ _ _).trans (zero_block2 corner)) (Finset.sum_congr rfl fun b _ => congrArg₂ rowMse
    (funext fun c' => funext fun t => funext fun j => congrFun (ld_whole x0 _) (ix4 b c' t j))
    (funext fun c' => funext fun t => funext fun j => congrFun (ld_whole x1 _) (ix4 b c' t j)))).trans (zero_add _)

/-- A FIRST STEP, second accumulator: zeroed, then the block's roughness alone. -/
theorem first_rough (hc : cond0_0 i) (x0 x1 : Vec Ideal S8x3x300x25 .f32) :
    out0_A_3 c i a2 h2 a3 h3 a4 h4 a5 h5 hc x0 x1 corner = blockRough x0 x1 := by
  unfold out0_A_3
  unfold kernelRun0_A
  dsimp only
  sl_unfold_words
  refine (View.read_writes_cons_unit_of_mem VO0_3 _ inb_S1x8x128_S1x1x1_0_0_0 _ _ corner unit3 rfl corner_at).trans ?_
  refine (pay1_pay5_apply _ _ _ unit3).trans ?_
  simp only [View.readAt_eq_ld, h2.read_unread, h3.read_unread]
  unfold blockRough
  refine (congrArg₂ (· + ·) ((readback_corner a5.view _ _ _).trans (zero_block3 corner)) (Finset.sum_congr rfl fun b _ => congrArg₂ rowRough
    (funext fun c' => funext fun t => funext fun j => congrFun (ld_whole x0 _) (ix4 b c' t j))
    (funext fun c' => funext fun t => funext fun j => congrFun (ld_whole x1 _) (ix4 b c' t j)))).trans (zero_add _)

end Cert.KernelIdeal.Loss

end
-- ==== Proof.Accumulate.lean ====
/-
  The two accumulators over the grid.

  The grid has `256` points, point `n = 128·q + s` for half `q` and step `s`. At point `n` both input windows hold
  rows `8n … 8n+7` of their arrays, so the block's squared error and roughness are the sums over those rows
  (`termMse n`, `termRough n`). The accumulators' corners reset to the point's term at `s = 0` and add it at every later
  step: at the last step of half `q` (point `128·q + 127`, the only one written back) they hold the sum of the half's
  `128` terms.
-/
import proofs.«174398_j69655779606927_2_alg».proof.Proof.CaseValues
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ) (c : Dev nD)

/-- The two argument arrays as the launch finds them. -/
abbrev argX : S2048x3x300x25.Idx → EReal := m ((c.tc : Thread nD τ).loc main_arg0)
abbrev argT : S2048x3x300x25.Idx → EReal := m ((c.tc : Thread nD τ).loc main_arg1)

/-- Both input windows' block index at point `t` is `(t, 0, 0, 0)`: blocks of `8` rows, in point order. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- Row `b` of the first window's block at point `t` is row `8t + b` of the first array. -/
theorem iblk0_apply (t : Fin cfg0.N) (b : Fin 8) (c' : Fin 3) (t' : Fin 300) (j : Fin 25) :
    (iblk m c 0 t : Vec Ideal S8x3x300x25 .f32) (ix4 b c' t' j) = row (argX m c) (8 * t.val + b.val) c' t' j := by
  have hN : t.val < 256 := lt_of_lt_of_eq t.isLt (show cfg0.N = 256 from N_0)
  have hlt : 8 * t.val + b.val < 2048 := by have := b.isLt; omega
  obtain ⟨i0, i1, i2, i3⟩ := index0 t
  unfold iblk row
  rw [dif_pos hlt, View.read_apply]
  show V m c main_arg0 _ = m (c.tc.loc main_arg0) _
  unfold V
  congr 1
  funext a
  apply Fin.ext
  match a with
  | ⟨0, _⟩ => show win0_0.index t 0 * 8 + 1 * b.val = 8 * t.val + b.val; rw [i0]; omega
  | ⟨1, _⟩ => show win0_0.index t 1 * 3 + 1 * c'.val = c'.val; rw [i1]; omega
  | ⟨2, _⟩ => show win0_0.index t 2 * 300 + 1 * t'.val = t'.val; rw [i2]; omega
  | ⟨3, _⟩ => show win0_0.index t 3 * 25 + 1 * j.val = j.val; rw [i3]; omega

/-- Row `b` of the second window's block at point `t` is row `8t + b` of the second array. -/
theorem iblk1_apply (t : Fin cfg0.N) (b : Fin 8) (c' : Fin 3) (t' : Fin 300) (j : Fin 25) :
    (iblk m c 1 t : Vec Ideal S8x3x300x25 .f32) (ix4 b c' t' j) = row (argT m c) (8 * t.val + b.val) c' t' j := by
  have hN : t.val < 256 := lt_of_lt_of_eq t.isLt (show cfg0.N = 256 from N_0)
  have hlt : 8 * t.val + b.val < 2048 := by have := b.isLt; omega
  obtain ⟨i0, i1, i2, i3⟩ := index1 t
  unfold iblk row
  rw [dif_pos hlt, View.read_apply]
  show V m c main_arg1 _ = m (c.tc.loc main_arg1) _
  unfold V
  congr 1
  funext a
  apply Fin.ext
  match a with
  | ⟨0, _⟩ => show win0_1.index t 0 * 8 + 1 * b.val = 8 * t.val + b.val; rw [i0]; omega
  | ⟨1, _⟩ => show win0_1.index t 1 * 3 + 1 * c'.val = c'.val; rw [i1]; omega
  | ⟨2, _⟩ => show win0_1.index t 2 * 300 + 1 * t'.val = t'.val; rw [i2]; omega
  | ⟨3, _⟩ => show win0_1.index t 3 * 25 + 1 * j.val = j.val; rw [i3]; omega

/-- Point `n`'s two terms: the squared error and the roughness of rows `8n … 8n+7`. -/
def termMse (n : ℕ) : EReal := ∑ b : Fin 8, rowMse (row (argX m c) (8 * n + b.val)) (row (argT m c) (8 * n + b.val))
def termRough (n : ℕ) : EReal := ∑ b : Fin 8, rowRough (row (argX m c) (8 * n + b.val)) (row (argT m c) (8 * n + b.val))

theorem blockMse_iblk (t : Fin cfg0.N) : blockMse (iblk m c 0 t) (iblk m c 1 t) = termMse m c t.val := by
  unfold blockMse termMse
  exact Finset.sum_congr rfl fun b _ => congrArg₂ rowMse
    (funext fun c' => funext fun t' => funext fun j => iblk0_apply m c t b c' t' j)
    (funext fun c' => funext fun t' => funext fun j => iblk1_apply m c t b c' t' j)

theorem blockRough_iblk (t : Fin cfg0.N) : blockRough (iblk m c 0 t) (iblk m c 1 t) = termRough m c t.val := by
  unfold blockRough termRough
  exact Finset.sum_congr rfl fun b _ => congrArg₂ rowRough
    (funext fun c' => funext fun t' => funext fun j => iblk0_apply m c t b c' t' j)
    (funext fun c' => funext fun t' => funext fun j => iblk1_apply m c t b c' t' j)

/-- The corners of the two accumulators' staging buffers after point `n`. -/
def accMse (n : ℕ) (h : n < cfg0.N) : EReal := (outsAt0 m c n h).1 corner
def accRough (n : ℕ) (h : n < cfg0.N) : EReal := (outsAt0 m c n h).2 corner

/-- At the first step of a half the corners hold the point's terms; -/
theorem accMse_reset (n : ℕ) (h : n < cfg0.N) (hm : n % 128 = 0) : accMse m c n h = termMse m c n := by
  refine (congrArg (fun p => p.1 corner) (outsAt0_A m c ⟨n, h⟩ hm)).trans ?_
  refine (first_mse c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) ((hcond0_0 ⟨n, h⟩).mpr hm) (iblk m c 0 ⟨n, h⟩) (iblk m c 1 ⟨n, h⟩)).trans ?_
  exact blockMse_iblk m c ⟨n, h⟩

theorem accRough_reset (n : ℕ) (h : n < cfg0.N) (hm : n % 128 = 0) : accRough m c n h = termRough m c n := by
  refine (congrArg (fun p => p.2 corner) (outsAt0_A m c ⟨n, h⟩ hm)).trans ?_
  refine (first_rough c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) ((hcond0_0 ⟨n, h⟩).mpr hm) (iblk m c 0 ⟨n, h⟩) (iblk m c 1 ⟨n, h⟩)).trans ?_
  exact blockRough_iblk m c ⟨n, h⟩

/-- at every later step, what the step before left plus the point's terms. -/
theorem accMse_step (n : ℕ) (h : n + 1 < cfg0.N) (hm : ¬(n + 1) % 128 = 0) :
    accMse m c (n + 1) h = accMse m c n (Nat.lt_of_succ_lt h) + termMse m c (n + 1) := by
  refine (congrArg (fun p => p.1 corner) (outsAt0_B m c ⟨n + 1, h⟩ hm)).trans ?_
  refine (later_mse c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hh => hm ((hcond0_0 ⟨n + 1, h⟩).mp hh))
    (iblk m c 0 ⟨n + 1, h⟩) (iblk m c 1 ⟨n + 1, h⟩) (outsAt0 m c n (Nat.lt_of_succ_lt h)).1 (outsAt0 m c n (Nat.lt_of_succ_lt h)).2).trans ?_
  exact congrArg (accMse m c n (Nat.lt_of_succ_lt h) + ·) (blockMse_iblk m c ⟨n + 1, h⟩)

theorem accRough_step (n : ℕ) (h : n + 1 < cfg0.N) (hm : ¬(n + 1) % 128 = 0) :
    accRough m c (n + 1) h = accRough m c n (Nat.lt_of_succ_lt h) + termRough m c (n + 1) := by
  refine (congrArg (fun p => p.2 corner) (outsAt0_B m c ⟨n + 1, h⟩ hm)).trans ?_
  refine (later_rough c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hh => hm ((hcond0_0 ⟨n + 1, h⟩).mp hh))
    (iblk m c 0 ⟨n + 1, h⟩) (iblk m c 1 ⟨n + 1, h⟩) (outsAt0 m c n (Nat.lt_of_succ_lt h)).1 (outsAt0 m c n (Nat.lt_of_succ_lt h)).2).trans ?_
  exact congrArg (accRough m c n (Nat.lt_of_succ_lt h) + ·) (blockRough_iblk m c ⟨n + 1, h⟩)

/-- So at the last step of a half the corners hold the half's `128` terms summed. -/
theorem accMse_last (n : ℕ) (h : n < cfg0.N) (hn : n % 128 = 127) :
    accMse m c n h = ∑ s ∈ Finset.range 128, termMse m c (128 * (n / 128) + s) :=
  Cert.SumLaws.fold_at_last (accMse m c) (termMse m c) (accMse_reset m c) (accMse_step m c) n h hn

theorem accRough_last (n : ℕ) (h : n < cfg0.N) (hn : n % 128 = 127) :
    accRough m c n h = ∑ s ∈ Finset.range 128, termRough m c (128 * (n / 128) + s) :=
  Cert.SumLaws.fold_at_last (accRough m c) (termRough m c) (accRough_reset m c) (accRough_step m c) n h hn

end Cert.KernelIdeal.Loss

end
-- ==== Proof.FinalArrays.lean ====
/-
  The two result arrays after the call.

  Each result array is `[2,8,128]`, one `[1,8,128]` block per half, written back once, after the half's last step.
  Only the entries `(q,0,0)` are read afterwards: entry `(q,0,0)` of the first array is half `q`'s squared error, of the
  second half `q`'s roughness — whatever point wrote an entry last wrote the corner of a last step's staging buffer.
-/
import proofs.«174398_j69655779606927_2_alg».proof.Proof.Accumulate
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ) (c : Dev nD)

/-- Both result windows' block index at point `t` is `(t / 128, 0, 0)`: one block per half. -/
theorem index2 : ∀ t : Fin cfg0.N, win0_2.index t 0 = t.val / 128 ∧ win0_2.index t 1 = 0 ∧ win0_2.index t 2 = 0 :=
  (by decide +kernel : ∀ t : Fin grid0.N, win0_2.index t 0 = t.val / 128 ∧ win0_2.index t 1 = 0 ∧ win0_2.index t 2 = 0)

/-- A half's squared error: its `128` points' terms. -/
def halfMse (q : ℕ) : EReal := ∑ s ∈ Finset.range 128, termMse m c (128 * q + s)

/-- Entry `(q,0,0)` of the first result array: half `q`'s squared error. -/
theorem final_mse (q : Fin 2) :
    (dats m 0 c).arrAt 2 cfg0.N (ix3 q (0 : Fin 8) (0 : Fin 128)) = halfMse m c q.val := by
  have hN : cfg0.N = 256 := N_0
  have hq := q.isLt
  have ht : 128 * q.val + 127 < cfg0.N := by omega
  have hf : (cfg0.win 2).flush ⟨128 * q.val + 127, ht⟩ = true :=
    (flush0_2 ⟨128 * q.val + 127, ht⟩).mpr (by show (128 * q.val + 127) % 128 = 127; omega)
  refine (dats m 0 c).arrAt_forall_of_flushed 2
    (fun i v => ∀ q' : Fin 2, i = (ix3 q' (0 : Fin 8) (0 : Fin 128) : S2x8x128.Idx) → v = halfMse m c q'.val)
    ?_ cfg0.N ⟨128 * q.val + 127, ht⟩ (ix3 q (0 : Fin 8) (0 : Fin 128)) ht hf ?_ q rfl
  · intro t hft y q' hq'
    have htm : t.val % 128 = 127 := (flush0_2 t).mp hft
    obtain ⟨j0, j1, j2⟩ := index2 t
    have y0 : (y (0 : Fin 3)).val < 1 := (y (0 : Fin 3)).isLt
    have e0 : ((win0_2.rect t).emb y (0 : Fin 3)).val = q'.val := congrArg Fin.val (congrFun hq' (0 : Fin 3))
    have e1 : ((win0_2.rect t).emb y (1 : Fin 3)).val = 0 := congrArg Fin.val (congrFun hq' (1 : Fin 3))
    have e2 : ((win0_2.rect t).emb y (2 : Fin 3)).val = 0 := congrArg Fin.val (congrFun hq' (2 : Fin 3))
    rw [Pipeline.Window.rect_emb_val] at e0 e1 e2
    rw [j0] at e0; rw [j1] at e1; rw [j2] at e2
    have s0 : win0_2.size (0 : Fin 3) = 1 := rfl
    rw [s0] at e0
    have hy : win0_2.xinj (grid0.coords t) y = corner := funext fun a => Fin.ext (by
      match a with
      | ⟨0, _⟩ => show (y (0 : Fin 3)).val = 0; omega
      | ⟨1, _⟩ => show (y (1 : Fin 3)).val = 0; omega
      | ⟨2, _⟩ => show (y (2 : Fin 3)).val = 0; omega)
    show (dats m 0 c).after 2 t (win0_2.xinj (grid0.coords t) y) = _
    rw [after0_2, hy]
    show accMse m c t.val t.isLt = _
    rw [accMse_last m c t.val t.isLt htm]
    unfold halfMse
    have eq : t.val / 128 = q'.val := by omega
    rw [eq]
  · obtain ⟨j0, j1, j2⟩ := index2 ⟨128 * q.val + 127, ht⟩
    show _ ∈ ((View.whole main_v0_0).slice (win0_2.rect ⟨128 * q.val + 127, ht⟩)).set
    rw [View.set_slice_whole, Rect.mem_set_unit]
    intro a
    match a with
    | ⟨0, _⟩ =>
      show win0_2.index ⟨128 * q.val + 127, ht⟩ 0 * 1 ≤ q.val ∧ q.val < win0_2.index ⟨128 * q.val + 127, ht⟩ 0 * 1 + 1
      rw [j0]; show (128 * q.val + 127) / 128 * 1 ≤ q.val ∧ q.val < (128 * q.val + 127) / 128 * 1 + 1; omega
    | ⟨1, _⟩ =>
      show win0_2.index ⟨128 * q.val + 127, ht⟩ 1 * 8 ≤ 0 ∧ 0 < win0_2.index ⟨128 * q.val + 127, ht⟩ 1 * 8 + 8
      rw [j1]; omega
    | ⟨2, _⟩ =>
      show win0_2.index ⟨128 * q.val + 127, ht⟩ 2 * 128 ≤ 0 ∧ 0 < win0_2.index ⟨128 * q.val + 127, ht⟩ 2 * 128 + 128
      rw [j2]; omega

theorem index3 : ∀ t : Fin cfg0.N, win0_3.index t 0 = t.val / 128 ∧ win0_3.index t 1 = 0 ∧ win0_3.index t 2 = 0 :=
  (by decide +kernel : ∀ t : Fin grid0.N, win0_3.index t 0 = t.val / 128 ∧ win0_3.index t 1 = 0 ∧ win0_3.index t 2 = 0)

/-- A half's roughness: its `128` points' terms. -/
def halfRough (q : ℕ) : EReal := ∑ s ∈ Finset.range 128, termRough m c (128 * q + s)

/-- Entry `(q,0,0)` of the second result array: half `q`'s roughness. -/
theorem final_rough (q : Fin 2) :
    (dats m 0 c).arrAt 3 cfg0.N (ix3 q (0 : Fin 8) (0 : Fin 128)) = halfRough m c q.val := by
  have hN : cfg0.N = 256 := N_0
  have hq := q.isLt
  have ht : 128 * q.val + 127 < cfg0.N := by omega
  have hf : (cfg0.win 3).flush ⟨128 * q.val + 127, ht⟩ = true :=
    (flush0_3 ⟨128 * q.val + 127, ht⟩).mpr (by show (128 * q.val + 127) % 128 = 127; omega)
  refine (dats m 0 c).arrAt_forall_of_flushed 3
    (fun i v => ∀ q' : Fin 2, i = (ix3 q' (0 : Fin 8) (0 : Fin 128) : S2x8x128.Idx) → v = halfRough m c q'.val)
    ?_ cfg0.N ⟨128 * q.val + 127, ht⟩ (ix3 q (0 : Fin 8) (0 : Fin 128)) ht hf ?_ q rfl
  · intro t hft y q' hq'
    have htm : t.val % 128 = 127 := (flush0_3 t).mp hft
    obtain ⟨j0, j1, j2⟩ := index3 t
    have y0 : (y (0 : Fin 3)).val < 1 := (y (0 : Fin 3)).isLt
    have e0 : ((win0_3.rect t).emb y (0 : Fin 3)).val = q'.val := congrArg Fin.val (congrFun hq' (0 : Fin 3))
    have e1 : ((win0_3.rect t).emb y (1 : Fin 3)).val = 0 := congrArg Fin.val (congrFun hq' (1 : Fin 3))
    have e2 : ((win0_3.rect t).emb y (2 : Fin 3)).val = 0 := congrArg Fin.val (congrFun hq' (2 : Fin 3))
    rw [Pipeline.Window.rect_emb_val] at e0 e1 e2
    rw [j0] at e0; rw [j1] at e1; rw [j2] at e2
    have s0 : win0_3.size (0 : Fin 3) = 1 := rfl
    rw [s0] at e0
    have hy : win0_3.xinj (grid0.coords t) y = corner := funext fun a => Fin.ext (by
      match a with
      | ⟨0, _⟩ => show (y (0 : Fin 3)).val = 0; omega
      | ⟨1, _⟩ => show (y (1 : Fin 3)).val = 0; omega
      | ⟨2, _⟩ => show (y (2 : Fin 3)).val = 0; omega)
    show (dats m 0 c).after 3 t (win0_3.xinj (grid0.coords t) y) = _
    rw [after0_3, hy]
    show accRough m c t.val t.isLt = _
    rw [accRough_last m c t.val t.isLt htm]
    unfold halfRough
    have eq : t.val / 128 = q'.val := by omega
    rw [eq]
  · obtain ⟨j0, j1, j2⟩ := index3 ⟨128 * q.val + 127, ht⟩
    show _ ∈ ((View.whole main_v0_1).slice (win0_3.rect ⟨128 * q.val + 127, ht⟩)).set
    rw [View.set_slice_whole, Rect.mem_set_unit]
    intro a
    match a with
    | ⟨0, _⟩ =>
      show win0_3.index ⟨128 * q.val + 127, ht⟩ 0 * 1 ≤ q.val ∧ q.val < win0_3.index ⟨128 * q.val + 127, ht⟩ 0 * 1 + 1
      rw [j0]; show (128 * q.val + 127) / 128 * 1 ≤ q.val ∧ q.val < (128 * q.val + 127) / 128 * 1 + 1; omega
    | ⟨1, _⟩ =>
      show win0_3.index ⟨128 * q.val + 127, ht⟩ 1 * 8 ≤ 0 ∧ 0 < win0_3.index ⟨128 * q.val + 127, ht⟩ 1 * 8 + 8
      rw [j1]; omega
    | ⟨2, _⟩ =>
      show win0_3.index ⟨128 * q.val + 127, ht⟩ 2 * 128 ≤ 0 ∧ 0 < win0_3.index ⟨128 * q.val + 127, ht⟩ 2 * 128 + 128
      rw [j2]; omega

end Cert.KernelIdeal.Loss

end
-- ==== Proof.KernelValue.lean ====
/-
  The kernel's result: the host lines after the call, applied to the two result arrays, give the loss.

  After the call the host slices the corners `(q,0,0)` out of each `[2,8,128]` result array, sums the two, divides the
  first sum by `46080000`, the second by `6144` and by `7500`, and forms `2·a + 3·b`. The corners are the halves'
  sums (FinalArrays), the two halves together are all `2048` rows (`sum_rows`), so the result is the loss of the
  two argument arrays.
-/
import proofs.«174398_j69655779606927_2_alg».proof.Proof.FinalArrays
import Idealize.ShloMosaic.Lib.StableHlo.Run
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open Idealize.ShloMosaic.StableHlo

namespace Cert.KernelIdeal.Loss

open Cert.KernelIdeal Cert.KernelIdeal.Gen Cert.Loss

variable (m : (ℓ : Loc nD τ sig) → Buf (Elt Ideal) ℓ) (ρ : Dev nD → PrngReg) (c : Dev nD)

/-- The host lines after the call, as one function of the two result arrays. -/
def tail (A0 A1 : S2x8x128.Idx → EReal) : S_.Idx → EReal :=
  addf (F := Ideal)
    (mulf (F := Ideal) (constant (F := Ideal) S_ .f32 0x40000000#32)
      (Host.divf (F := Ideal)
        (Host.reduceAdd (F := Ideal) (shapeCast S2 (extractStridedSlice S2x1x1 ![0, 0, 0] A0 slices_S2x8x128_S2x1x1_0_0_0) shapeCasts_S2x1x1_S2)
          (constant (F := Ideal) S_ .f32 0x00000000#32) reducesTo_S2_S_d0 h_S_)
        (constant (F := Ideal) S_ .f32 0x4C2FC800#32)))
    (mulf (F := Ideal) (constant (F := Ideal) S_ .f32 0x40400000#32)
      (Host.divf (F := Ideal)
        (Host.divf (F := Ideal)
          (Host.reduceAdd (F := Ideal) (shapeCast S2 (extractStridedSlice S2x1x1 ![0, 0, 0] A1 slices_S2x8x128_S2x1x1_0_0_0) shapeCasts_S2x1x1_S2)
            (constant (F := Ideal) S_ .f32 0x00000000#32) reducesTo_S2_S_d0 h_S_)
          (constant (F := Ideal) S_ .f32 0x45C00000#32))
        (constant (F := Ideal) S_ .f32 0x45EA6000#32)))

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's reading of one result array — slice `[0:2, 0:1, 0:1]`, flatten to `[2]`, sum from zero — is the sum of its
    two corner entries. -/
theorem halves_sum (A : S2x8x128.Idx → EReal) (i : S_.Idx) :
    Host.reduceAdd (F := Ideal) (shapeCast S2 (extractStridedSlice S2x1x1 ![0, 0, 0] A slices_S2x8x128_S2x1x1_0_0_0) shapeCasts_S2x1x1_S2)
      (constant (F := Ideal) S_ .f32 0x00000000#32) reducesTo_S2_S_d0 h_S_ i
      = A (ix3 (0 : Fin 2) (0 : Fin 8) (0 : Fin 128)) + A (ix3 (1 : Fin 2) (0 : Fin 8) (0 : Fin 128)) := by
  simp only [Host.reduceAdd, Ideal.hostReduceAdd_def]
  rw [Ideal.hostReduceAdd_total reducesTo_S2_S_d0 (fun b => b.elim0)]
  refine (congrArg (· + _) Cert.SumLaws.ofBits_zero).trans ((zero_add _).trans ?_)
  rw [sum_idx1, Fin.sum_univ_two]
  have e : ∀ k : Fin 2, shapeCast S2 (extractStridedSlice S2x1x1 ![0, 0, 0] A slices_S2x8x128_S2x1x1_0_0_0) shapeCasts_S2x1x1_S2
      (ix1 k) = A (ix3 k (0 : Fin 8) (0 : Fin 128)) := fun k => by
    refine (shapeCast_apply _ shapeCasts_S2x1x1_S2 (ix1 k) (ix3 k (0 : Fin 1) (0 : Fin 1)) ?_).trans ?_
    · rw [Shape.rowMajor_val_three, Shape.rowMajor_val_one]
      show (k.val * 1 + 0) * 1 + 0 = k.val
      omega
    · exact extractStridedSlice_apply _ A _ _ (ix3 k (0 : Fin 8) (0 : Fin 128)) (fun a => match a with
        | ⟨0, _⟩ => by show k.val = 0 + k.val; omega
        | ⟨1, _⟩ => by show (0 : ℕ) = 0 + 0; omega
        | ⟨2, _⟩ => by show (0 : ℕ) = 0 + 0; omega)
  rw [e, e]

/-- The host lines after the call, read at the extended reals: the loss formula of the two arrays' corner sums. -/
theorem tail_apply (A0 A1 : S2x8x128.Idx → EReal) (i : S_.Idx) :
    tail A0 A1 i
      = lossOf (A0 (ix3 (0 : Fin 2) (0 : Fin 8) (0 : Fin 128)) + A0 (ix3 (1 : Fin 2) (0 : Fin 8) (0 : Fin 128)))
          (A1 (ix3 (0 : Fin 2) (0 : Fin 8) (0 : Fin 128)) + A1 (ix3 (1 : Fin 2) (0 : Fin 8) (0 : Fin 128))) := by
  unfold tail lossOf
  show _ * Ideal.div (Host.reduceAdd (F := Ideal) _ _ reducesTo_S2_S_d0 h_S_ i) _
      + _ * Ideal.div (Ideal.div (Host.reduceAdd (F := Ideal) _ _ reducesTo_S2_S_d0 h_S_ i) _) _ = _
  rw [halves_sum, halves_sum]
  rfl

/-- The two halves' squared errors together are the `2048` rows'. -/
theorem total_mse : halfMse m c 0 + halfMse m c 1 = mseTotal (argX m c) (argT m c) := by
  unfold mseTotal
  rw [Cert.SumLaws.sum_rows (fun n => rowMse (row (argX m c) n) (row (argT m c) n)), Fin.sum_univ_two]
  rfl

/-- The two halves' roughness together is the `2048` rows'. -/
theorem total_rough : halfRough m c 0 + halfRough m c 1 = roughTotal (argX m c) (argT m c) := by
  unfold roughTotal
  rw [Cert.SumLaws.sum_rows (fun n => rowRough (row (argX m c) n) (row (argT m c) n)), Fin.sum_univ_two]
  rfl

/-- THE KERNEL'S VALUE: @main's result after the call and the host lines is the loss of the two argument arrays. -/
theorem kernel_value :
    Pipeline.afterTail₀ cfgs (dats m) 0 (V0 m) [hostOps1] c main_v12 = fun _ => loss (argX m c) (argT m c) := by
  unfold Pipeline.afterTail₀
  show StableHlo.after hostOps1 _ (Proc.devRef .tc main_v12) = _
  after_results
  have a0 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have a1 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  refine Eq.trans (b := tail ((dats m 0 c).arrAt 2 cfg0.N) ((dats m 0 c).arrAt 3 cfg0.N)) ?_ ?_
  · rw [a0, a1]
    rfl
  · funext i
    rw [tail_apply, final_mse m c 0, final_mse m c 1, final_rough m c 0, final_rough m c 1]
    show lossOf (halfMse m c 0 + halfMse m c 1) (halfRough m c 0 + halfRough m c 1) = _
    rw [total_mse, total_rough]
    rfl

/-- THE KERNEL'S RUN, READ: every weakly fair execution ends with @main's result at the loss of the argument arrays and
    the arguments unchanged. -/
theorem run : θ_run defs (onTc (τ := τ) (main (F := Ideal))) ⟨m, fun _ => 0, ρ⟩ fun r => ∀ c : Dev nD,
      r.2.mem ((c.tc : Thread nD τ).loc main_v12) = (fun _ => loss (argX m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v12 (by decide)).trans (kernel_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Loss

end
-- ==== Proof.RefValue.lean ====
/-
  The reference's result, read stage by stage, is the loss.

  The reference squares the difference of the two arrays and sums it over every index; transposes both arrays to
  (row, joint, frame, channel), takes each column's drift over the `299` frame pairs, the absolute difference of the two
  drifts, its sum over the first `24` joints, the square root, the quotient by `7500`, the sum over rows and channels and
  the quotient by `6144`. Index by index these are `rowMse` and `rough` of the rows; the one law used is that the
  positive divisors `7500` and `6144` move across the sum (`div_sum_div`).
-/
import proofs.«174398_j69655779606927_2_alg».proof.Proof.Gen.ReferenceIdeal.Read
import proofs.«174398_j69655779606927_2_alg».proof.Proof.Spec
import proofs.«174398_j69655779606927_2_alg».proof.Proof.SumLaws
import Idealize.ShloMosaic.Lib.ValueIdx

noncomputable section

open Idealize.ShloMosaic Idealize.ShloMosaic.ValueIdx

namespace Cert.ReferenceIdeal.Loss

open Cert.ReferenceIdeal Cert.ReferenceIdeal.Read Cert.Loss

/-- A rank-4 index set is the product of its four coordinate ranges, so a sum over it is the fourfold sum. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

variable (x0 x1 : (⟨S2048x3x300x25, .f32⟩ : BufTy).Contents (Elt Ideal))

/-- Row `B` of an array, at a row index inside it. -/
theorem row_apply (x : (⟨S2048x3x300x25, .f32⟩ : BufTy).Contents (Elt Ideal)) (B : Fin 2048) (c : Fin 3) (t : Fin 300) (j : Fin 25) :
    row x B.val c t j = x (ix4 B c t j) := by
  unfold row
  rw [dif_pos B.isLt]

/-- The summed squared difference is the rows' squared errors. -/
theorem ref_mse (i : S_.Idx) : val_main_v2 (F := Ideal) x0 x1 i = mseTotal x0 x1 := by
  rw [val_main_v2_apply]
  refine (congrArg (· + _) Cert.SumLaws.ofBits_zero).trans ((zero_add _).trans ?_)
  rw [sum_idx4]
  unfold mseTotal rowMse
  refine Finset.sum_congr rfl fun B _ => Finset.sum_congr rfl fun c _ => Finset.sum_congr rfl fun t _ =>
    Finset.sum_congr rfl fun j _ => ?_
  rw [row_apply, row_apply]
  rfl

/-- One column's drift, as the reference computes it on the transposed array: at (row, joint, channel). -/
theorem ref_drift (x : (⟨S2048x3x300x25, .f32⟩ : BufTy).Contents (Elt Ideal)) (B : Fin 2048) (c : Fin 3) (k : Fin 24) :
    val_main_v10 (F := Ideal) x (ix3 B (jt k) c) = drift (fun t => row x B.val c t (jt k)) := by
  rw [val_main_v10_apply]
  refine (congrArg (· + _) Cert.SumLaws.ofBits_zero).trans ((zero_add _).trans ?_)
  unfold drift
  refine Finset.sum_congr rfl fun t _ => ?_
  rw [val_main_v9_apply, val_main_v6_apply, val_main_v8_apply, val_main_v7_apply, val_main_v4_apply, val_main_v4_apply]
  have e6 : idx_main_v4 (idx_main_v6 (idx_main_v10 (ix3 B (jt k) c) t)) = ix4 B c (lo t) (jt k) :=
    funext fun a => Fin.ext (by match a with | ⟨0, _⟩ => rfl | ⟨1, _⟩ => rfl | ⟨2, _⟩ => rfl | ⟨3, _⟩ => rfl)
  have e7 : idx_main_v4 (idx_main_v7 (idx_main_v10 (ix3 B (jt k) c) t)) = ix4 B c (hi t) (jt k) :=
    funext fun a => Fin.ext (by match a with | ⟨0, _⟩ => rfl | ⟨1, _⟩ => rfl | ⟨2, _⟩ => rfl | ⟨3, _⟩ => rfl)
  rw [e6, e7]
  simp only [row_apply]
  rfl

/-- The same for the second array (its own chain of stages). -/
theorem ref_drift' (x : (⟨S2048x3x300x25, .f32⟩ : BufTy).Contents (Elt Ideal)) (B : Fin 2048) (c : Fin 3) (k : Fin 24) :
    val_main_v15 (F := Ideal) x (ix3 B (jt k) c) = drift (fun t => row x B.val c t (jt k)) := by
  rw [val_main_v15_apply]
  refine (congrArg (· + _) Cert.SumLaws.ofBits_zero).trans ((zero_add _).trans ?_)
  unfold drift
  refine Finset.sum_congr rfl fun t _ => ?_
  rw [val_main_v14_apply, val_main_v11_apply, val_main_v13_apply, val_main_v12_apply, val_main_v5_apply, val_main_v5_apply]
  have e6 : idx_main_v5 (idx_main_v11 (idx_main_v15 (ix3 B (jt k) c) t)) = ix4 B c (lo t) (jt k) :=
    funext fun a => Fin.ext (by match a with | ⟨0, _⟩ => rfl | ⟨1, _⟩ => rfl | ⟨2, _⟩ => rfl | ⟨3, _⟩ => rfl)
  have e7 : idx_main_v5 (idx_main_v12 (idx_main_v15 (ix3 B (jt k) c) t)) = ix4 B c (hi t) (jt k) :=
    funext fun a => Fin.ext (by match a with | ⟨0, _⟩ => rfl | ⟨1, _⟩ => rfl | ⟨2, _⟩ => rfl | ⟨3, _⟩ => rfl)
  rw [e6, e7]
  simp only [row_apply]
  rfl

/-- One (row, channel) entry before the division: the channel's roughness. -/
theorem ref_rough (B : Fin 2048) (c : Fin 3) :
    val_main_v20 (F := Ideal) x0 x1 (ix2 B c) = rough (row x0 B.val c) (row x1 B.val c) := by
  rw [val_main_v20_apply]
  show Ideal.sqrt (val_main_v19 (F := Ideal) x0 x1 (ix2 B c)) = _
  unfold rough
  refine congrArg Ideal.sqrt ?_
  rw [val_main_v19_apply]
  refine (congrArg (· + _) Cert.SumLaws.ofBits_zero).trans ((zero_add _).trans ?_)
  refine Finset.sum_congr rfl fun k _ => ?_
  rw [val_main_v18_apply]
  have e18 : idx_main_v18 (idx_main_v19 (ix2 B c) k) = ix3 B (jt k) c :=
    funext fun a => Fin.ext (by match a with | ⟨0, _⟩ => rfl | ⟨1, _⟩ => rfl | ⟨2, _⟩ => rfl)
  rw [e18, val_main_v17_apply, val_main_v16_apply, ref_drift, ref_drift']
  rfl

/-- The mean of the per-entry quotients: the rows' roughness total over `6144`, over `7500`. -/
theorem ref_smooth (i : S_.Idx) :
    val_main_v24 (F := Ideal) x0 x1 i
      = Ideal.div (Ideal.div (roughTotal x0 x1) (Ideal.ofBits .f32 0x45C00000#32)) (Ideal.ofBits .f32 0x45EA6000#32) := by
  rw [val_main_v24_apply, val_main_v23_apply]
  show Ideal.div (Ideal.ofBits .f32 0x00000000#32 + ∑ j : S2048x3.Idx, val_main_v22 (F := Ideal) x0 x1 j) (Ideal.ofBits .f32 0x45C00000#32) = _
  rw [Cert.SumLaws.ofBits_zero, zero_add, sum_idx2]
  have hterm : ∀ (B : Fin 2048) (c : Fin 3), val_main_v22 (F := Ideal) x0 x1 (ix2 B c)
      = Ideal.div (rough (row x0 B.val c) (row x1 B.val c)) (Ideal.ofBits .f32 0x45EA6000#32) := fun B c => by
    rw [val_main_v22_apply, ref_rough, val_main_v21_apply]
    rfl
  simp only [hterm]
  have h := Cert.SumLaws.div_sum_div (Finset.univ : Finset (Fin 2048 × Fin 3))
    (fun p => rough (row x0 p.1.val p.2) (row x1 p.1.val p.2)) (c₁ := 7500) (c₂ := 6144) (by norm_num) (by norm_num)
  rw [Fintype.sum_prod_type, Fintype.sum_prod_type] at h
  rw [Cert.SumLaws.ofBits_7500, Cert.SumLaws.ofBits_6144]
  exact h

/-- THE REFERENCE'S VALUE: its result stage is the loss of the two arrays. -/
theorem ref_value (i : S_.Idx) : val_main_v27 (F := Ideal) x0 x1 i = loss x0 x1 := by
  rw [val_main_v27_apply, val_main_v25_apply, val_main_v26_apply, val_main_v3_apply, ref_mse, ref_smooth]
  rfl

end Cert.ReferenceIdeal.Loss

end
-- ==== Proof.lean ====
/-
  Two programs compute one loss of two arrays `x, y : f32[2048, 3, 300, 25]` (row, channel, frame, joint):

      2 · (Σ (x - y)²) / 46080000  +  3 · ((Σ_{row, channel} √ Σ_{joint < 24} |D x - D y|) / 6144) / 7500,

  where `D z` of a (row, channel, joint) column is `Σ_{frame t < 299} (z_t - z_{t+1}²)`.

  The kernel walks the rows in blocks of `8`, `128` blocks per half of the batch: each step adds the block's squared
  error and the block's roughness into the corners of two accumulator blocks, zeroed at the first step of the half and
  written back after the last; the host then adds the two halves' corners and divides. The reference sums the squared
  differences over all indices at once, and takes the MEAN over (row, channel) of `√… / 7500`.

  Over the extended reals the two agree: sums may be regrouped freely (addition is commutative and associative,
  infinities included), and the two positive divisors `7500` and `6144` move across the sum because a nonnegative
  finite factor distributes over any sum of extended reals. No entry needs to be finite for this, so the precondition
  is never opened.

  Modules: SumLaws (the sum laws and the two divisors' values), Spec (the loss), Payloads (the body's arithmetic at an
  index), CaseValues (what each step leaves at an accumulator's corner), Accumulate (the fold over the grid),
  FinalArrays (the result arrays' corners), KernelValue (the host lines after the call, and the kernel's run),
  RefValue (the reference's stages). The frames are the generated ones; the reference's is its generated run with
  the result dropped; no operation was rewritten by the ideal pass, so there is nothing to preserve.
-/
import proofs.«174398_j69655779606927_2_alg».proof.Defs
import proofs.«174398_j69655779606927_2_alg».proof.Proof.Gen.Kernel
import proofs.«174398_j69655779606927_2_alg».proof.Proof.Gen.Kernel.Skeleton
import proofs.«174398_j69655779606927_2_alg».proof.Proof.Gen.Kernel.Launch
import proofs.«174398_j69655779606927_2_alg».proof.Proof.Gen.Kernel.Points
import proofs.«174398_j69655779606927_2_alg».proof.Proof.Gen.Kernel.Frame
import proofs.«174398_j69655779606927_2_alg».proof.Proof.Gen.KernelIdeal
import proofs.«174398_j69655779606927_2_alg».proof.Proof.Gen.KernelIdeal.Skeleton
import proofs.«174398_j69655779606927_2_alg».proof.Proof.Gen.KernelIdeal.Launch
import proofs.«174398_j69655779606927_2_alg».proof.Proof.Gen.KernelIdeal.Points
import proofs.«174398_j69655779606927_2_alg».proof.Proof.Gen.KernelIdeal.Frame
import proofs.«174398_j69655779606927_2_alg».proof.Proof.Gen.ReferenceIdeal
import proofs.«174398_j69655779606927_2_alg».proof.Proof.Gen.ReferenceIdeal.Run
import proofs.«174398_j69655779606927_2_alg».proof.Proof.Gen.ReferenceIdeal.Read
import proofs.«174398_j69655779606927_2_alg».proof.Proof.Gen.Pre_finite_inputs
import proofs.«174398_j69655779606927_2_alg».proof.Proof.KernelValue
import proofs.«174398_j69655779606927_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the extended reals both programs end with the loss of the argument arrays: the kernel by its run read back
    (KernelValue), the reference by its stages (RefValue), of arguments that agree. -/
theorem algebraic : Cert.algebraic_KernelIdeal_ReferenceIdeal := by
  intro m ρ m' ρ' _ hagree
  refine ⟨fun c => fun _ => Cert.Loss.loss (Cert.KernelIdeal.Loss.argX m c) (Cert.KernelIdeal.Loss.argT m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  funext i
  exact Cert.ReferenceIdeal.Loss.ref_value _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
